-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S256x278 : Shape := ⟨2, ![256, 278]⟩
abbrev S790x512 : Shape := ⟨2, ![790, 512]⟩
abbrev S512 : Shape := ⟨1, ![512]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S256x278 : S_.BroadcastsInDim S256x278 (![] : Fin 0 → Fin S256x278.rank)
  reducesTo_S256x278_S_d0_1 : S256x278.ReducesTo [0, 1] S_
  bcast_S_S790x512 : S_.BroadcastsInDim S790x512 (![] : Fin 0 → Fin S790x512.rank)
  reducesTo_S790x512_S_d0_1 : S790x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x64 .f32) (main_arg5 : FVec F S64 .f32) (main_arg6 : FVec F S64x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S512x512 .f32) (main_arg1 : FVec F S256x278 .f32) (main_arg2 : FVec F S790x512 .f32) (main_arg3 : FVec F S512 .f32) (main_arg4 : FVec F S512x64 .f32) (main_arg5 : FVec F S64 .f32) (main_arg6 : FVec F S64x1 .f32) (main_arg7 : FVec F S1 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S256x278 .f32 := Host.absf main_arg1
  let main_cst_0 : FVec F S_ .f32 := constant S_ .f32 0x7F800000#32
  let main_v5 : FVec F S256x278 .f32 := broadcastInDim S256x278 ![] bcast_S_S256x278 main_cst_0
  let main_v6 : IVec S256x278 1 := cmpf .olt main_v4 main_v5
  let main_c_1 : IVec S_ 1 := constantI S_ 1 1#1
  let main_v7 : IVec S_ 1 := (fun x v => Host.reduce IntOp.andi x v reducesTo_S256x278_S_d0_1 h_S_) main_v6 main_c_1
  let main_v8 : IVec S_ 1 := andi main_v3 main_v7
  let main_v9 : FVec F S790x512 .f32 := Host.absf main_arg2
  let main_cst_2 : FVec F S_ .f32 := constant S_ .f32 0x7F800000#32
  let main_v10 : FVec F S790x512 .f32 := broadcastInDim S790x512 ![] bcast_S_S790x512 main_cst_2
  let main_v11 : IVec S790x512 1 := cmpf .olt main_v9 main_v10
  let main_c_3 : IVec S_ 1 := constantI S_ 1 1#1
  let main_v12 : IVec S_ 1 := (fun x v => Host.reduce IntOp.andi x v reducesTo_S790x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S512x512 : Shape := ⟨2, ![512, 512]⟩
abbrev S256x278 : Shape := ⟨2, ![256, 278]⟩
abbrev S790x512 : Shape := ⟨2, ![790, 512]⟩
abbrev S512 : Shape := ⟨1, ![512]⟩
abbrev S512x64 : Shape := ⟨2, ![512, 64]⟩
abbrev S64 : Shape := ⟨1, ![64]⟩
abbrev S64x1 : Shape := ⟨2, ![64, 1]⟩
abbrev S1 : Shape := ⟨1, ![1]⟩
abbrev S278x512 : Shape := ⟨2, ![278, 512]⟩
abbrev S1x512 : Shape := ⟨2, ![1, 512]⟩
abbrev S256x512 : Shape := ⟨2, ![256, 512]⟩
abbrev S1x64 : Shape := ⟨2, ![1, 64]⟩
abbrev S1x1 : Shape := ⟨2, ![1, 1]⟩
abbrev S512x256 : Shape := ⟨2, ![512, 256]⟩
abbrev S512x256x64 : Shape := ⟨3, ![512, 256, 64]⟩
abbrev S32x512 : Shape := ⟨2, ![32, 512]⟩
abbrev S128x512 : Shape := ⟨2, ![128, 512]⟩
abbrev S32x128 : Shape := ⟨2, ![32, 128]⟩
abbrev S32x128x64 : Shape := ⟨3, ![32, 128, 64]⟩
abbrev S32x1x512 : Shape := ⟨3, ![32, 1, 512]⟩
abbrev S1x128x512 : Shape := ⟨3, ![1, 128, 512]⟩
abbrev S32x128x512 : Shape := ⟨3, ![32, 128, 512]⟩
abbrev S4096x512 : Shape := ⟨2, ![4096, 512]⟩
abbrev S4096x64 : Shape := ⟨2, ![4096, 64]⟩
abbrev S4096x1 : Shape := ⟨2, ![4096, 1]⟩
abbrev S32x128x1 : Shape := ⟨3, ![32, 128, 1]⟩
abbrev S131072 : Shape := ⟨1, ![131072]⟩
abbrev S131072x64 : Shape := ⟨2, ![131072, 64]⟩

abbrev nBuf : Space → Nat
  | .hbm => 25
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S256x278, .f32⟩
  | .hbm, ⟨2, _⟩ => ⟨S790x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S512x512, .f32⟩
  | .hbm, ⟨9, _⟩ => ⟨S278x512, .f32⟩
  | .hbm, ⟨10, _⟩ => ⟨S512x512, .f32⟩
  | .hbm, ⟨11, _⟩ => ⟨S1x512, .f32⟩
  | .hbm, ⟨12, _⟩ => ⟨S512x512, .f32⟩
  | .hbm, ⟨13, _⟩ => ⟨S512x512, .f32⟩
  | .hbm, ⟨14, _⟩ => ⟨S512x512, .bf16⟩
  | .hbm, ⟨15, _⟩ => ⟨S256x512, .f32⟩
  | .hbm, ⟨16, _⟩ => ⟨S256x512, .bf16⟩
  | .hbm, ⟨17, _⟩ => ⟨S512x64, .bf16⟩
  | .hbm, ⟨18, _⟩ => ⟨S64x1, .bf16⟩
  | .hbm, ⟨19, _⟩ => ⟨S1x64, .f32⟩
  | .hbm, ⟨20, _⟩ => ⟨S1x1, .f32⟩
  | .hbm, ⟨21, _⟩ => ⟨S512x256, .f32⟩
  | .hbm, ⟨22, _⟩ => ⟨S512x256x64, .f32⟩
  | .hbm, ⟨23, _⟩ => ⟨S131072, .f32⟩
  | .hbm, ⟨24, _⟩ => ⟨S131072x64, .f32⟩
  | .local _ .vmem, ⟨0, _⟩ => ⟨S32x512, .bf16⟩
  | .local _ .vmem, ⟨1, _⟩ => ⟨S32x512, .bf16⟩
  | .local _ .vmem, ⟨2, _⟩ => ⟨S128x512, .bf16⟩
  | .local _ .vmem, ⟨3, _⟩ => ⟨S128x512, .bf16⟩
  | .local _ .vmem, ⟨4, _⟩ => ⟨S512x64, .bf16⟩
  | .local _ .vmem, ⟨5, _⟩ => ⟨S1x64, .f32⟩
  | .local _ .vmem, ⟨6, _⟩ => ⟨S64x1, .bf16⟩
  | .local _ .vmem, ⟨7, _⟩ => ⟨S1x1, .f32⟩
  | .local _ .vmem, ⟨8, _⟩ => ⟨S32x128, .f32⟩
  | .local _ .vmem, ⟨9, _⟩ => ⟨S32x128, .f32⟩
  | .local _ .vmem, ⟨10, _⟩ => ⟨S32x128x64, .f32⟩
  | .local _ .vmem, ⟨11, _⟩ => ⟨S32x128x64, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S790x512_S512x512_0_0 : S790x512.Slices ![0, 0] S512x512
  slices_S790x512_S278x512_512_0 : S790x512.Slices ![512, 0] S278x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bitsLt_bf16_f32 : FTy.bits .bf16 < FTy.bits .f32
  shapeCasts_S64_S1x64 : S64.ShapeCasts S1x64
  shapeCasts_S1_S1x1 : S1.ShapeCasts S1x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  shapeCasts_S32x128x512_S4096x512 : S32x128x512.ShapeCasts S4096x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S4096x64_S32x128x64 : S4096x64.ShapeCasts S32x128x64
  inb_S32x128x64_S32x128x64_0_0_0 : ∀ a, (![0, 0, 0] : Fin 3 → Nat) a + S32x128x64.size a ≤ S32x128x64.size a
  h_S32x128x64 : 0 < S32x128x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S32x128x1 : S4096x1.ShapeCasts S32x128x1
  shapeCasts_S32x128x1_S32x128 : S32x128x1.ShapeCasts S32x128
  inb_S32x128_S32x128_0_0 : ∀ a, (![0, 0] : Fin 2 → Nat) a + S32x128.size a ≤ S32x128.size a
  h_S32x128 : 0 < S32x128.numel
  shapeCasts_S512x256_S131072 : S512x256.ShapeCasts S131072
  shapeCasts_S512x256x64_S131072x64 : S512x256x64.ShapeCasts S131072x64
  dot_S512x512_S512x512_S512x512_1_0_0_1_n_n_wf : DotDims.WF S512x512 S512x512 S512x512 [1] [0] [0] [1] [] []
  dot_S256x278_S278x512_S256x512_1_0_0_1_n_n_wf : DotDims.WF S256x278 S278x512 S256x512 [1] [0] [0] [1] [] []
  dot_S4096x512_S512x64_S4096x64_1_0_0_1_n_n_wf : DotDims.WF S4096x512 S512x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S512x512.size a
  hwx0_0 : ∀ i : grid0.Coords, EltTy.bits .bf16 = 32 ∨ (Rect.block (s := S512x512) S32x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S256x512.size a
  hwx0_1 : ∀ i : grid0.Coords, EltTy.bits .bf16 = 32 ∨ (Rect.block (s := S256x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .bf16 = 32 ∨ (Rect.block (s := S512x64) S512x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .bf16 = 32 ∨ (Rect.block (s := S64x1) S64x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S512x256.size a
  hwx0_6 : ∀ i : grid0.Coords, EltTy.bits .f32 = 32 ∨ (Rect.block (s := S512x256) S32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128x64.size a ≤ S512x256x64.size a
  hwx0_7 : ∀ i : grid0.Coords, EltTy.bits .f32 = 32 ∨ (Rect.block (s := S512x256x64) S32x128x64.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x278_S278x512_S256x512_1_0_0_1_n_n : DotDims S256x278 S278x512 S256x512 where
  lhsContracting := [1]
  rhsContracting := [0]
  lhsNonContracting := [0]
  rhsNonContracting := [1]
  lhsBatch := []
  rhsBatch := []
  wf := dot_S256x278_S278x512_S256x512_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_v6) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S32x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S32x128x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x512 : Shape := ⟨2, ![512, 512]⟩
abbrev S256x278 : Shape := ⟨2, ![256, 278]⟩
abbrev S790x512 : Shape := ⟨2, ![790, 512]⟩
abbrev S512 : Shape := ⟨1, ![512]⟩
abbrev S512x64 : Shape := ⟨2, ![512, 64]⟩
abbrev S64 : Shape := ⟨1, ![64]⟩
abbrev S64x1 : Shape := ⟨2, ![64, 1]⟩
abbrev S1 : Shape := ⟨1, ![1]⟩
abbrev S278x512 : Shape := ⟨2, ![278, 512]⟩
abbrev S256x512 : Shape := ⟨2, ![256, 512]⟩
abbrev S512x1x512 : Shape := ⟨3, ![512, 1, 512]⟩
abbrev S1x256x512 : Shape := ⟨3, ![1, 256, 512]⟩
abbrev S512x256x512 : Shape := ⟨3, ![512, 256, 512]⟩
abbrev S1x1x512 : Shape := ⟨3, ![1, 1, 512]⟩
abbrev S_ : Shape := ⟨0, ![]⟩
abbrev S512x256x64 : Shape := ⟨3, ![512, 256, 64]⟩
abbrev S1x1x64 : Shape := ⟨3, ![1, 1, 64]⟩
abbrev S131072x64 : Shape := ⟨2, ![131072, 64]⟩
abbrev S131072x1 : Shape := ⟨2, ![131072, 1]⟩
abbrev S1x1 : Shape := ⟨2, ![1, 1]⟩
abbrev S131072 : Shape := ⟨1, ![131072]⟩

abbrev nBuf : Space → Nat
  | .hbm => 44
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S256x278, .f32⟩
  | .hbm, ⟨2, _⟩ => ⟨S790x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S512x512, .f32⟩
  | .hbm, ⟨9, _⟩ => ⟨S512x512, .f32⟩
  | .hbm, ⟨10, _⟩ => ⟨S278x512, .f32⟩
  | .hbm, ⟨11, _⟩ => ⟨S256x512, .f32⟩
  | .hbm, ⟨12, _⟩ => ⟨S512x1x512, .f32⟩
  | .hbm, ⟨13, _⟩ => ⟨S1x256x512, .f32⟩
  | .hbm, ⟨14, _⟩ => ⟨S512x256x512, .f32⟩
  | .hbm, ⟨15, _⟩ => ⟨S512x256x512, .f32⟩
  | .hbm, ⟨16, _⟩ => ⟨S512x256x512, .f32⟩
  | .hbm, ⟨17, _⟩ => ⟨S1x1x512, .f32⟩
  | .hbm, ⟨18, _⟩ => ⟨S512x256x512, .f32⟩
  | .hbm, ⟨19, _⟩ => ⟨S512x256x512, .f32⟩
  | .hbm, ⟨20, _⟩ => ⟨S_, .f32⟩
  | .hbm, ⟨21, _⟩ => ⟨S512x256x512, .f32⟩
  | .hbm, ⟨22, _⟩ => ⟨S512x256x512, .f32⟩
  | .hbm, ⟨23, _⟩ => ⟨S512x256x64, .f32⟩
  | .hbm, ⟨24, _⟩ => ⟨S1x1x64, .f32⟩
  | .hbm, ⟨25, _⟩ => ⟨S512x256x64, .f32⟩
  | .hbm, ⟨26, _⟩ => ⟨S512x256x64, .f32⟩
  | .hbm, ⟨27, _⟩ => ⟨S_, .f32⟩
  | .hbm, ⟨28, _⟩ => ⟨S512x256x64, .f32⟩
  | .hbm, ⟨29, _⟩ => ⟨S512x256x64, .f32⟩
  | .hbm, ⟨30, _⟩ => ⟨S131072x64, .f32⟩
  | .hbm, ⟨31, _⟩ => ⟨S131072x1, .f32⟩
  | .hbm, ⟨32, _⟩ => ⟨S1x1, .f32⟩
  | .hbm, ⟨33, _⟩ => ⟨S131072x1, .f32⟩
  | .hbm, ⟨34, _⟩ => ⟨S131072x1, .f32⟩
  | .hbm, ⟨35, _⟩ => ⟨S131072, .f32⟩
  | .hbm, ⟨36, _⟩ => ⟨S131072, .f32⟩
  | .hbm, ⟨37, _⟩ => ⟨S131072, .f32⟩
  | .hbm, ⟨38, _⟩ => ⟨S_, .f32⟩
  | .hbm, ⟨39, _⟩ => ⟨S131072, .f32⟩
  | .hbm, ⟨40, _⟩ => ⟨S131072, .f32⟩
  | .hbm, ⟨41, _⟩ => ⟨S_, .f32⟩
  | .hbm, ⟨42, _⟩ => ⟨S131072, .f32⟩
  | .hbm, ⟨43, _⟩ => ⟨S131072, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  slices_S790x512_S512x512_0_0 : S790x512.Slices ![0, 0] S512x512
  slices_S790x512_S278x512_512_0 : S790x512.Slices ![512, 0] S278x512
  bcast_S512x512_S512x1x512_0_2 : S512x512.BroadcastsInDim S512x1x512 (![0, 2] : Fin 2 → Fin S512x1x512.rank)
  bcast_S256x512_S1x256x512_1_2 : S256x512.BroadcastsInDim S1x256x512 (![1, 2] : Fin 2 → Fin S1x256x512.rank)
  bcast_S512x1x512_S512x256x512_0_1_2 : S512x1x512.BroadcastsInDim S512x256x512 (![0, 1, 2] : Fin 3 → Fin S512x256x512.rank)
  bcast_S1x256x512_S512x256x512_0_1_2 : S1x256x512.BroadcastsInDim S512x256x512 (![0, 1, 2] : Fin 3 → Fin S512x256x512.rank)
  bcast_S512_S1x1x512_2 : S512.BroadcastsInDim S1x1x512 (![2] : Fin 1 → Fin S1x1x512.rank)
  bcast_S1x1x512_S512x256x512_0_1_2 : S1x1x512.BroadcastsInDim S512x256x512 (![0, 1, 2] : Fin 3 → Fin S512x256x512.rank)
  bcast_S_S512x256x512 : S_.BroadcastsInDim S512x256x512 (![] : Fin 0 → Fin S512x256x512.rank)
  bcast_S64_S1x1x64_2 : S64.BroadcastsInDim S1x1x64 (![2] : Fin 1 → Fin S1x1x64.rank)
  bcast_S1x1x64_S512x256x64_0_1_2 : S1x1x64.BroadcastsInDim S512x256x64 (![0, 1, 2] : Fin 3 → Fin S512x256x64.rank)
  bcast_S_S512x256x64 : S_.BroadcastsInDim S512x256x64 (![] : Fin 0 → Fin S512x256x64.rank)
  shapeCasts_S512x256x64_S131072x64 : S512x256x64.ShapeCasts S131072x64
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  bcast_S_S131072 : S_.BroadcastsInDim S131072 (![] : Fin 0 → Fin S131072.rank)
  dot_S512x512_S512x512_S512x512_1_0_0_1_n_n_wf : DotDims.WF S512x512 S512x512 S512x512 [1] [0] [0] [1] [] []
  dot_S256x278_S278x512_S256x512_1_0_0_1_n_n_wf : DotDims.WF S256x278 S278x512 S256x512 [1] [0] [0] [1] [] []
  dot_S512x256x512_S512x64_S512x256x64_2_0_01_1_n_n_wf : DotDims.WF S512x256x512 S512x64 S512x256x64 [2] [0] [0, 1] [1] [] []
  dot_S131072x64_S64x1_S131072x1_1_0_0_1_n_n_wf : DotDims.WF S131072x64 S64x1 S131072x1 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x278_S278x512_S256x512_1_0_0_1_n_n : DotDims S256x278 S278x512 S256x512 where
  lhsContracting := [1]
  rhsContracting := [0]
  lhsNonContracting := [0]
  rhsNonContracting := [1]
  lhsBatch := []
  rhsBatch := []
  wf := dot_S256x278_S278x512_S256x512_1_0_0_1_n_n_wf
def dot_S512x256x512_S512x64_S512x256x64_2_0_01_1_n_n : DotDims S512x256x512 S512x64 S512x256x64 where
  lhsContracting := [2]
  rhsContracting := [0]
  lhsNonContracting := [0, 1]
  rhsNonContracting := [1]
  lhsBatch := []
  rhsBatch := []
  wf := dot_S512x256x512_S512x64_S512x256x64_2_0_01_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.Spec.lean ====
/-
  The pairwise cell–drug perceptron as functions of the eight argument arrays, on the extended reals.

  For cell row `i`, drug row `j`: the first layer's pre-activation at hidden unit `h` is the cell row times the first
  512 rows of the weight matrix, plus the drug row times its last 278 rows, plus the bias; it is rectified, carried through
  a second affine layer of width 64 and rectified again (the features), and a last affine layer of width one followed by the
  logistic function gives the probability.  The two programs group the first layer's three summands differently; addition
  of extended reals is commutative and associative, so the groupings agree (`hidden_regroup`).
-/
import Idealize.ShloMosaic.PureOps.Ideal
import Idealize.ShloMosaic.PureOps.Ideal.Laws
import Idealize.ShloMosaic.Lib.ValueIdx

noncomputable section

open scoped BigOperators

namespace Cert.PairMlp

open Idealize.ShloMosaic Idealize.ShloMosaic.ValueIdx

abbrev CellArr := (⟨2, ![512, 512]⟩ : Shape).Idx → EReal
abbrev DrugArr := (⟨2, ![256, 278]⟩ : Shape).Idx → EReal
abbrev W1Arr := (⟨2, ![790, 512]⟩ : Shape).Idx → EReal
abbrev B1Arr := (⟨1, ![512]⟩ : Shape).Idx → EReal
abbrev W2Arr := (⟨2, ![512, 64]⟩ : Shape).Idx → EReal
abbrev B2Arr := (⟨1, ![64]⟩ : Shape).Idx → EReal
abbrev W3Arr := (⟨2, ![64, 1]⟩ : Shape).Idx → EReal
abbrev B3Arr := (⟨1, ![1]⟩ : Shape).Idx → EReal

/-- Row `k` of the cell part of the first weight matrix (its rows 0 … 511). -/
abbrev cellRow (k : Fin 512) : Fin 790 := ⟨k.val, by omega⟩
/-- Row `k` of the drug part of the first weight matrix (its rows 512 … 789). -/
abbrev drugRow (k : Fin 278) : Fin 790 := ⟨512 + k.val, by omega⟩

variable (x0 : CellArr) (x1 : DrugArr) (x2 : W1Arr) (x3 : B1Arr) (x4 : W2Arr) (x5 : B2Arr) (x6 : W3Arr) (x7 : B3Arr)

/-- Cell row `i` projected on hidden unit `h`. -/
def cellProj (i h : Fin 512) : EReal := ∑ k : Fin 512, x0 (ix2 i k) * x2 (ix2 (cellRow k) h)

/-- Drug row `j` projected on hidden unit `h`. -/
def drugProj (j : Fin 256) (h : Fin 512) : EReal := ∑ k : Fin 278, x1 (ix2 j k) * x2 (ix2 (drugRow k) h)

/-- The first layer's rectified output, the bias grouped with the cell projection. -/
def hidden (i : Fin 512) (j : Fin 256) (h : Fin 512) : EReal :=
  max ((cellProj x0 x2 i h + x3 (ix1 h)) + drugProj x1 x2 j h) 0

/-- The same with the bias added last: addition of extended reals is commutative and associative. -/
theorem hidden_regroup (i : Fin 512) (j : Fin 256) (h : Fin 512) :
    max ((cellProj x0 x2 i h + drugProj x1 x2 j h) + x3 (ix1 h)) 0 = hidden x0 x1 x2 x3 i j h := by
  unfold hidden; rw [add_right_comm]

/-- The second layer's rectified output: the features of the pair `(i, j)`. -/
def feat (i : Fin 512) (j : Fin 256) (k : Fin 64) : EReal :=
  max ((∑ h : Fin 512, hidden x0 x1 x2 x3 i j h * x4 (ix2 h k)) + x5 (ix1 k)) 0

/-- The last layer's output for the pair `(i, j)`. -/
def logit (i : Fin 512) (j : Fin 256) : EReal :=
  (∑ k : Fin 64, feat x0 x1 x2 x3 x4 x5 i j k * x6 (ix2 k (0 : Fin 1))) + x7 (ix1 (0 : Fin 1))

/-- The probability of the pair `(i, j)`. -/
def prob (i : Fin 512) (j : Fin 256) : EReal := Ideal.logistic (logit x0 x1 x2 x3 x4 x5 x6 x7 i j)

/-- The probabilities as a `[512, 256]` array and the features as a `[512, 256, 64]` array. -/
def probGrid : (⟨2, ![512, 256]⟩ : Shape).Idx → EReal := fun y => prob x0 x1 x2 x3 x4 x5 x6 x7 (y 0) (y 1)
def featGrid : (⟨3, ![512, 256, 64]⟩ : Shape).Idx → EReal := fun y => feat x0 x1 x2 x3 x4 x5 (y 0) (y 1) (y 2)

/-- Flat row `n` of the results is the pair `(n / 256, n % 256)`. -/
abbrev pairCell (n : Fin 131072) : Fin 512 := ⟨n.val / 256, by omega⟩
abbrev pairDrug (n : Fin 131072) : Fin 256 := ⟨n.val % 256, Nat.mod_lt _ (by decide)⟩

/-- The two results: the probabilities as a vector over the flat rows, the features as a `[131072, 64]` matrix. -/
def probFlat : (⟨1, ![131072]⟩ : Shape).Idx → EReal := fun y => prob x0 x1 x2 x3 x4 x5 x6 x7 (pairCell (y 0)) (pairDrug (y 0))
def featFlat : (⟨2, ![131072, 64]⟩ : Shape).Idx → EReal := fun y => feat x0 x1 x2 x3 x4 x5 (pairCell (y 0)) (pairDrug (y 0)) (y 1)

end Cert.PairMlp

end
-- ==== Proof.RefSide.lean ====
/-
  The reference program's two results, read index by index, are the perceptron of `Spec.lean`.

  Each stage of the reference is read at an index through the generated read-at-an-index lemmas; the stages' composed
  index functions are identified with plain coordinates, the contractions are the sums of the specification, and the
  reference's spelling of the logistic function, `1 / (1 + exp (-z))`, is its definition on the extended reals.
-/
import proofs.«104373_j14370960572455_2_alg».proof.Proof.Gen.ReferenceIdeal.Read
import proofs.«104373_j14370960572455_2_alg».proof.Proof.Spec
import Idealize.ShloMosaic.Lib.IdealHost

noncomputable section

open scoped BigOperators

namespace Cert.PairMlp.Ref

open Cert.ReferenceIdeal Cert.ReferenceIdeal.Read Idealize.ShloMosaic Idealize.ShloMosaic.ValueIdx Cert.PairMlp

variable (x0 : CellArr) (x1 : DrugArr) (x2 : W1Arr) (x3 : B1Arr) (x4 : W2Arr) (x5 : B2Arr) (x6 : W3Arr) (x7 : B3Arr)

/-- The reference's cell projection. -/
theorem cell_at (i h : Fin 512) : val_main_v1 (F := Ideal) x0 x2 (ix2 i h) = cellProj x0 x2 i h := by
  rw [val_main_v1_apply]; unfold cellProj
  refine Finset.sum_congr rfl fun k _ => ?_
  rw [val_main_v0_apply]
  have e1 : lidx_main_v1 (ix2 i h) k = ix2 i k := funext fun a => Fin.ext (by match a with | ⟨0, _⟩ => rfl | ⟨1, _⟩ => rfl)
  have e2 : idx_main_v0 (ridx_main_v1 (ix2 i h) k) = ix2 (cellRow k) h :=
    funext fun a => Fin.ext (by match a with | ⟨0, _⟩ => rfl | ⟨1, _⟩ => rfl)
  rw [e1, e2]

/-- The reference's drug projection. -/
theorem drug_at (j : Fin 256) (h : Fin 512) : val_main_v3 (F := Ideal) x1 x2 (ix2 j h) = drugProj x1 x2 j h := by
  rw [val_main_v3_apply]; unfold drugProj
  refine Finset.sum_congr rfl fun k _ => ?_
  rw [val_main_v2_apply]
  have e1 : lidx_main_v3 (ix2 j h) k = ix2 j k := funext fun a => Fin.ext (by match a with | ⟨0, _⟩ => rfl | ⟨1, _⟩ => rfl)
  have e2 : idx_main_v2 (ridx_main_v3 (ix2 j h) k) = ix2 (drugRow k) h :=
    funext fun a => Fin.ext (by match a with | ⟨0, _⟩ => rfl | ⟨1, _⟩ => rfl)
  rw [e1, e2]

/-- The reference's first layer: both projections broadcast over the pair, the bias added last, rectified. -/
theorem hidden_at (i : Fin 512) (j : Fin 256) (h : Fin 512) :
    val_main_v12 (F := Ideal) x0 x1 x2 x3 (ix3 i j h) = hidden x0 x1 x2 x3 i j h := by
  rw [val_main_v12_apply, val_main_v11_apply, val_main_v8_apply, val_main_v6_apply, val_main_v4_apply, val_main_v7_apply,
    val_main_v5_apply, val_main_v10_apply, val_main_v9_apply, val_main_call0_v0_apply, val_main_call0_cst_apply]
  have e1 : idx_main_v4 (idx_main_v6 (ix3 i j h)) = ix2 i h :=
    funext fun a => Fin.ext (by match a with | ⟨0, _⟩ => rfl | ⟨1, _⟩ => rfl)
  have e2 : idx_main_v5 (idx_main_v7 (ix3 i j h)) = ix2 j h :=
    funext fun a => Fin.ext (by match a with | ⟨0, _⟩ => rfl | ⟨1, _⟩ => rfl)
  have e3 : idx_main_v9 (idx_main_v10 (ix3 i j h)) = ix1 h :=
    funext fun a => Fin.ext (by match a with | ⟨0, _⟩ => rfl)
  rw [e1, e2, e3, cell_at, drug_at, ← hidden_regroup]
  simp only [Ideal.addf_def, Ideal.maximumf_def, Ideal.ofBits_def, Ideal.ofBits_zero_f32]

/-- The reference's second layer at the pair `(i, j)`. -/
theorem feat_at (i : Fin 512) (j : Fin 256) (k : Fin 64) :
    val_main_v17 (F := Ideal) x0 x1 x2 x3 x4 x5 (ix3 i j k) = feat x0 x1 x2 x3 x4 x5 i j k := by
  rw [val_main_v17_apply, val_main_v16_apply, val_main_v13_apply, val_main_v15_apply, val_main_v14_apply,
    val_main_call1_v0_apply, val_main_call1_cst_apply]
  have e3 : idx_main_v14 (idx_main_v15 (ix3 i j k)) = ix1 k :=
    funext fun a => Fin.ext (by match a with | ⟨0, _⟩ => rfl)
  have es : ∑ h : Fin 512, val_main_v12 (F := Ideal) x0 x1 x2 x3 (lidx_main_v13 (ix3 i j k) h) * x4 (ridx_main_v13 (ix3 i j k) h)
      = ∑ h : Fin 512, hidden x0 x1 x2 x3 i j h * x4 (ix2 h k) := by
    refine Finset.sum_congr rfl fun h _ => ?_
    have e1 : lidx_main_v13 (ix3 i j k) h = ix3 i j h :=
      funext fun a => Fin.ext (by match a with | ⟨0, _⟩ => rfl | ⟨1, _⟩ => rfl | ⟨2, _⟩ => rfl)
    have e2 : ridx_main_v13 (ix3 i j k) h = ix2 h k :=
      funext fun a => Fin.ext (by match a with | ⟨0, _⟩ => rfl | ⟨1, _⟩ => rfl)
    rw [e1, e2, hidden_at]
  rw [e3, es]; unfold feat
  simp only [Ideal.addf_def, Ideal.maximumf_def, Ideal.ofBits_def, Ideal.ofBits_zero_f32]

/-- The reference's feature matrix: flat row `n` is the pair `(n / 256, n % 256)`. -/
theorem featFlat_at (n : Fin 131072) (k : Fin 64) :
    val_main_v18 (F := Ideal) x0 x1 x2 x3 x4 x5 (ix2 n k) = feat x0 x1 x2 x3 x4 x5 (pairCell n) (pairDrug n) k := by
  rw [val_main_v18_apply]
  have e : idx_main_v18 (ix2 n k) = ix3 (pairCell n) (pairDrug n) k := funext fun a => Fin.ext (by
    have hn := n.isLt; have hk := k.isLt
    match a with
    | ⟨0, _⟩ => show (n.val * 64 + k.val) / 16384 = n.val / 256; omega
    | ⟨1, _⟩ => show (n.val * 64 + k.val) / 64 % 256 = n.val % 256; omega
    | ⟨2, _⟩ => show (n.val * 64 + k.val) % 64 = k.val; omega)
  rw [e, feat_at]

theorem featFlat_eq : val_main_v18 (F := Ideal) x0 x1 x2 x3 x4 x5 = featFlat x0 x1 x2 x3 x4 x5 := by
  funext y
  obtain ⟨n, k, rfl⟩ : ∃ (n : Fin 131072) (k : Fin 64), y = ix2 n k := ⟨y 0, y 1, eq_ix2 y⟩
  exact featFlat_at x0 x1 x2 x3 x4 x5 n k

/-- The reference's probabilities: the last layer at flat row `n`, then `1 / (1 + exp (-z))`. -/
theorem probFlat_at (n : Fin 131072) :
    val_main_v29 (F := Ideal) x0 x1 x2 x3 x4 x5 x6 x7 (ix1 n) = prob x0 x1 x2 x3 x4 x5 x6 x7 (pairCell n) (pairDrug n) := by
  rw [val_main_v29_apply, val_main_v28_apply, val_main_cst_0_apply, val_main_v27_apply, val_main_v26_apply, val_main_cst_apply,
    val_main_v25_apply, val_main_v24_apply, val_main_v23_apply, val_main_v22_apply, val_main_v19_apply, val_main_v21_apply,
    val_main_v20_apply]
  have e3 : idx_main_v20 (idx_main_v21 (idx_main_v23 (ix1 n))) = ix1 (0 : Fin 1) :=
    funext fun a => Fin.ext (by match a with | ⟨0, _⟩ => rfl)
  have es : ∑ k : Fin 64, val_main_v18 (F := Ideal) x0 x1 x2 x3 x4 x5 (lidx_main_v19 (idx_main_v23 (ix1 n)) k) * x6 (ridx_main_v19 (idx_main_v23 (ix1 n)) k)
      = ∑ k : Fin 64, feat x0 x1 x2 x3 x4 x5 (pairCell n) (pairDrug n) k * x6 (ix2 k (0 : Fin 1)) := by
    refine Finset.sum_congr rfl fun k _ => ?_
    have e1 : lidx_main_v19 (idx_main_v23 (ix1 n)) k = ix2 n k :=
      funext fun a => Fin.ext (by match a with | ⟨0, _⟩ => exact Nat.div_one _ | ⟨1, _⟩ => rfl)
    have e2 : ridx_main_v19 (idx_main_v23 (ix1 n)) k = ix2 k (0 : Fin 1) :=
      funext fun a => Fin.ext (by match a with | ⟨0, _⟩ => rfl | ⟨1, _⟩ => rfl)
    rw [e1, e2, featFlat_at]
  rw [e3, es]; unfold prob logit Ideal.logistic
  simp only [Ideal.addf_def, Ideal.hostDivf_def, Ideal.hostUnary_exp_def, Ideal.hostNegf_def, Ideal.negf_def, Ideal.ofBits_def,
    Ideal.ofBits_one_f32]

theorem probFlat_eq : val_main_v29 (F := Ideal) x0 x1 x2 x3 x4 x5 x6 x7 = probFlat x0 x1 x2 x3 x4 x5 x6 x7 := by
  funext y
  obtain ⟨n, rfl⟩ : ∃ n : Fin 131072, y = ix1 n := ⟨y 0, eq_ix1 y⟩
  exact probFlat_at x0 x1 x2 x3 x4 x5 x6 x7 n

end Cert.PairMlp.Ref

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«104373_j14370960572455_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.KHost.lean ====
/-
  The arrays the kernel's launch is given, read at an index.

  Before the launch the host computes the biased cell projections `x W₁[:512] + b₁` (512 × 512) and the drug projections
  `y W₁[512:]` (256 × 512); the second and third layers' weights are passed on unchanged in value (a change of float format is
  the identity on the extended reals) and the two biases as one-row matrices.
-/
import proofs.«104373_j14370960572455_2_alg».proof.Proof.Gen.KernelIdeal.Frame
import proofs.«104373_j14370960572455_2_alg».proof.Proof.Spec
import proofs.«104373_j14370960572455_2_alg».proof.Proof.LibMatmul2
import Idealize.ShloMosaic.Lib.StableHlo.Run
import Idealize.ShloMosaic.Lib.Pipeline.Value
import Idealize.ShloMosaic.Lib.ValueIdx

noncomputable section

open scoped BigOperators

namespace Cert.PairMlp.Host

open Cert.KernelIdeal Cert.KernelIdeal.Gen Idealize.ShloMosaic Idealize.ShloMosaic.ValueIdx Idealize.ShloMosaic.TcCoe Idealize.SL.Sem
open Cert.PairMlp

variable (m : (ℓ : Loc nD τ sig) → Buf (Elt Ideal) ℓ)

/-- The eight argument arrays on core `c`. -/
abbrev arg0 (c : Dev nD) : CellArr := m ((c : Thread nD τ).loc main_arg0)
abbrev arg1 (c : Dev nD) : DrugArr := m ((c : Thread nD τ).loc main_arg1)
abbrev arg2 (c : Dev nD) : W1Arr := m ((c : Thread nD τ).loc main_arg2)
abbrev arg3 (c : Dev nD) : B1Arr := m ((c : Thread nD τ).loc main_arg3)
abbrev arg4 (c : Dev nD) : W2Arr := m ((c : Thread nD τ).loc main_arg4)
abbrev arg5 (c : Dev nD) : B2Arr := m ((c : Thread nD τ).loc main_arg5)
abbrev arg6 (c : Dev nD) : W3Arr := m ((c : Thread nD τ).loc main_arg6)
abbrev arg7 (c : Dev nD) : B3Arr := m ((c : Thread nD τ).loc main_arg7)

/-! ## The launch's six operands as terms of the arguments -/

theorem cellOperand_eq (c : Dev nD) : (V m c main_v6 : S512x512.Idx → EReal) =
    truncf (F := Ideal) .bf16 (addf (F := Ideal) (φ := .f32) (Host.dotGeneral (F := Ideal) (φ₁ := .f32) (φ₂ := .f32) dot_S512x512_S512x512_S512x512_1_0_0_1_n_n none (arg0 m c)
        (extractStridedSlice S512x512 ![0, 0] (arg2 m c) Facts₀.slices_S790x512_S512x512_0_0))
      (broadcastInDim S512x512 ![0, 1] Facts₀.bcast_S1x512_S512x512_0_1 (broadcastInDim S1x512 ![1] Facts₀.bcast_S512_S1x512_1 (arg3 m c)))) Facts₀.bitsLt_bf16_f32 := by
  show StableHlo.after hostOps0 (fun b => m (c, b)) (Proc.devRef .tc main_v6) = _
  after_results <;> rfl

theorem drugOperand_eq (c : Dev nD) : (V m c main_v8 : S256x512.Idx → EReal) =
    truncf (F := Ideal) .bf16 (Host.dotGeneral (F := Ideal) (φ₁ := .f32) (φ₂ := .f32) dot_S256x278_S278x512_S256x512_1_0_0_1_n_n none (arg1 m c)
        (extractStridedSlice S278x512 ![512, 0] (arg2 m c) Facts₀.slices_S790x512_S278x512_512_0)) Facts₀.bitsLt_bf16_f32 := by
  show StableHlo.after hostOps0 (fun b => m (c, b)) (Proc.devRef .tc main_v8) = _
  after_results <;> rfl

theorem w2Operand_eq (c : Dev nD) : (V m c main_v9 : S512x64.Idx → EReal) = arg4 m c := by
  show StableHlo.after hostOps0 (fun b => m (c, b)) (Proc.devRef .tc main_v9) = _
  after_results <;> rfl

theorem w3Operand_eq (c : Dev nD) : (V m c main_v10 : S64x1.Idx → EReal) = arg6 m c := by
  show StableHlo.after hostOps0 (fun b => m (c, b)) (Proc.devRef .tc main_v10) = _
  after_results <;> rfl

theorem b2Operand_eq (c : Dev nD) : (V m c main_v11 : S1x64.Idx → EReal) = shapeCast S1x64 (arg5 m c) Facts₀.shapeCasts_S64_S1x64 := by
  show StableHlo.after hostOps0 (fun b => m (c, b)) (Proc.devRef .tc main_v11) = _
  after_results <;> rfl

theorem b3Operand_eq (c : Dev nD) : (V m c main_v12 : S1x1.Idx → EReal) = shapeCast S1x1 (arg7 m c) Facts₀.shapeCasts_S1_S1x1 := by
  show StableHlo.after hostOps0 (fun b => m (c, b)) (Proc.devRef .tc main_v12) = _
  after_results <;> rfl

/-! ## The free-axis facts of the two host products' dimension numbers -/

theorem dotC_lhs0 (j : S512x512.Idx) (q : dot_S512x512_S512x512_S512x512_1_0_0_1_n_n.contr.Idx) :
    (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem dotC_rhs1 (j : S512x512.Idx) (q : dot_S512x512_S512x512_S512x512_1_0_0_1_n_n.contr.Idx) :
    (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl
theorem dotD_lhs0 (j : S256x512.Idx) (q : dot_S256x278_S278x512_S256x512_1_0_0_1_n_n.contr.Idx) :
    (dot_S256x278_S278x512_S256x512_1_0_0_1_n_n.lhsIdx j q 0).val = (j 0).val := by
  unfold DotDims.lhsIdx
  rw [dif_neg (show ¬(0 : Fin S256x278.rank) ∈ dot_S256x278_S278x512_S256x512_1_0_0_1_n_n.lhsBatch by decide),
    dif_pos (show (0 : Fin S256x278.rank) ∈ dot_S256x278_S278x512_S256x512_1_0_0_1_n_n.lhsNonContracting by decide)]
  rfl
theorem dotD_rhs1 (j : S256x512.Idx) (q : dot_S256x278_S278x512_S256x512_1_0_0_1_n_n.contr.Idx) :
    (dot_S256x278_S278x512_S256x512_1_0_0_1_n_n.rhsIdx j q 1).val = (j 1).val := by
  unfold DotDims.rhsIdx
  rw [dif_neg (show ¬(1 : Fin S278x512.rank) ∈ dot_S256x278_S278x512_S256x512_1_0_0_1_n_n.rhsBatch by decide),
    dif_pos (show (1 : Fin S278x512.rank) ∈ dot_S256x278_S278x512_S256x512_1_0_0_1_n_n.rhsNonContracting by decide)]
  rfl

/-! ## The operands at an index -/

/-- The first operand: the cell projection plus the first bias. -/
theorem cellOperand_at (c : Dev nD) (i h : Fin 512) :
    V m c main_v6 (ix2 i h) = cellProj (arg0 m c) (arg2 m c) i h + arg3 m c (ix1 h) := by
  change @Eq EReal _ _
  refine (congrFun (cellOperand_eq m c) (ix2 i h)).trans ?_
  rw [truncf_apply, addf_apply]
  rw [LibMatmul2.dotGeneral_apply dot_S512x512_S512x512_S512x512_1_0_0_1_n_n rfl rfl rfl rfl dotC_lhs0 dotC_rhs1 none _ _ i h]
  rw [broadcastInDim_apply _ Facts₀.bcast_S1x512_S512x512_0_1 _ (ix2 i h) (ix2 (0 : Fin 1) h) (fun a => match a with
      | ⟨0, _⟩ => by show 0 = if (1 : Nat) = 1 then 0 else i.val; rw [if_pos rfl]
      | ⟨1, _⟩ => by show h.val = if (512 : Nat) = 1 then 0 else h.val; rw [if_neg (by decide)]),
    broadcastInDim_apply _ Facts₀.bcast_S512_S1x512_1 _ (ix2 (0 : Fin 1) h) (ix1 h) (fun a => match a with
      | ⟨0, _⟩ => by show h.val = if (512 : Nat) = 1 then 0 else h.val; rw [if_neg (by decide)])]
  unfold cellProj
  refine congrArg (· + arg3 m c (ix1 h)) (Finset.sum_congr rfl fun k _ => ?_)
  rw [extractStridedSlice_apply ![0, 0] (arg2 m c) Facts₀.slices_S790x512_S512x512_0_0 (ix2 k h) (ix2 (cellRow k) h) (fun a => match a with
      | ⟨0, _⟩ => by show k.val = 0 + k.val; omega
      | ⟨1, _⟩ => by show h.val = 0 + h.val; omega)]

/-- The second operand: the drug projection. -/
theorem drugOperand_at (c : Dev nD) (j : Fin 256) (h : Fin 512) :
    V m c main_v8 (ix2 j h) = drugProj (arg1 m c) (arg2 m c) j h := by
  change @Eq EReal _ _
  refine (congrFun (drugOperand_eq m c) (ix2 j h)).trans ?_
  rw [truncf_apply]
  rw [LibMatmul2.dotGeneral_apply dot_S256x278_S278x512_S256x512_1_0_0_1_n_n rfl rfl rfl rfl dotD_lhs0 dotD_rhs1 none _ _ j h]
  unfold drugProj
  change @Eq EReal _ _
  refine Finset.sum_congr rfl fun k _ => ?_
  rw [extractStridedSlice_apply ![512, 0] (arg2 m c) Facts₀.slices_S790x512_S278x512_512_0 (ix2 k h) (ix2 (drugRow k) h) (fun a => match a with
      | ⟨0, _⟩ => by show 512 + k.val = 512 + k.val; rfl
      | ⟨1, _⟩ => by show h.val = 0 + h.val; omega)]

/-- The two biases as one-row matrices. -/
theorem b2Operand_at (c : Dev nD) (k : Fin 64) : V m c main_v11 (ix2 (0 : Fin 1) k) = arg5 m c (ix1 k) := by
  change @Eq EReal _ _
  refine (congrFun (b2Operand_eq m c) (ix2 (0 : Fin 1) k)).trans ?_
  exact shapeCast_apply _ Facts₀.shapeCasts_S64_S1x64 (ix2 (0 : Fin 1) k) (ix1 k) (by
    rw [Shape.rowMajor_val_one, Shape.rowMajor_val_two]; show k.val = 0 * 64 + k.val; omega)

theorem b3Operand_at (c : Dev nD) : V m c main_v12 (ix2 (0 : Fin 1) (0 : Fin 1)) = arg7 m c (ix1 (0 : Fin 1)) := by
  change @Eq EReal _ _
  refine (congrFun (b3Operand_eq m c) (ix2 (0 : Fin 1) (0 : Fin 1))).trans ?_
  exact shapeCast_apply _ Facts₀.shapeCasts_S1_S1x1 (ix2 (0 : Fin 1) (0 : Fin 1)) (ix1 (0 : Fin 1)) (by
    rw [Shape.rowMajor_val_one, Shape.rowMajor_val_two]; rfl)

end Cert.PairMlp.Host

end
-- ==== Proof.KPay.lean ====
/-
  The kernel body's two stored values, read at an index of the tile.

  A grid point works on 32 cell rows and 128 drug rows.  From the tile's blocks — the biased cell projections `c`
  (32 × 512), the drug projections `d` (128 × 512), the second and third layers' weights and biases — the body forms
  `relu (c p + d q)` for every pair `(p, q)`, folds the pairs into 4096 rows, and applies the two affine layers by matrix
  products; the features are stored as a `[32, 128, 64]` block and the logistic of the last layer as a `[32, 128]` block.
  Row `128 p + q` of the folded arrays is the pair `(p, q)`.
-/
import proofs.«104373_j14370960572455_2_alg».proof.Proof.Gen.KernelIdeal.Skeleton
import proofs.«104373_j14370960572455_2_alg».proof.Proof.LibMatmul2
import Idealize.ShloMosaic.Lib.Pipeline.Value
import Idealize.ShloMosaic.Lib.ValueIdx
import Idealize.ShloMosaic.Lib.IdealHost

noncomputable section

open scoped BigOperators

namespace Cert.PairMlp.Body

open Cert.KernelIdeal Cert.KernelIdeal.Gen Idealize.ShloMosaic Idealize.ShloMosaic.ValueIdx
open Cert.KernelIdeal.Facts₀

/-- The folded row of the pair `(p, q)` of a tile. -/
abbrev tileRow (p : Fin 32) (q : Fin 128) : Fin 4096 := ⟨p.val * 128 + q.val, by omega⟩

variable (v0 : Vec Ideal S32x512 .bf16) (v2 : Vec Ideal S128x512 .bf16) (v12 : Vec Ideal S512x64 .bf16) (v15 : Vec Ideal S1x64 .f32)
  (v24 : Vec Ideal S64x1 .bf16) (v27 : Vec Ideal S1x1 .f32)

/-- The tile's first layer, second layer and probability, from its blocks. -/
def tHidden (p : Fin 32) (q : Fin 128) (h : Fin 512) : EReal := max (v0 (ix2 p h) + v2 (ix2 q h)) 0
def tFeat (p : Fin 32) (q : Fin 128) (k : Fin 64) : EReal :=
  max ((∑ h : Fin 512, tHidden v0 v2 p q h * v12 (ix2 h k)) + v15 (ix2 (0 : Fin 1) k)) 0
def tProb (p : Fin 32) (q : Fin 128) : EReal :=
  Ideal.logistic ((∑ k : Fin 64, tFeat v0 v2 v12 v15 p q k * v24 (ix2 k (0 : Fin 1))) + v27 (ix2 (0 : Fin 1) (0 : Fin 1)))

/-- The broadcast sum of the two projections, rectified and folded to 4096 rows, at row `128 p + q`. -/
theorem hidden_cast_at (h1 : S32x512.ShapeCasts S32x512) (h2 : S32x512.ShapeCasts S32x1x512) (h3 : S32x1x512.Broadcasts S32x128x512)
    (h4 : S128x512.ShapeCasts S128x512) (h5 : S128x512.ShapeCasts S1x128x512) (h6 : S1x128x512.Broadcasts S32x128x512)
    (h7 : S32x128x512.ShapeCasts S4096x512) (p : Fin 32) (q : Fin 128) (h : Fin 512) :
    shapeCast S4096x512 (maximumf (addf (broadcastTo S32x128x512 (shapeCast S32x1x512 (shapeCast S32x512 v0 h1) h2) h3)
        (broadcastTo S32x128x512 (shapeCast S1x128x512 (shapeCast S128x512 v2 h4) h5) h6))
      (broadcast S32x128x512 (Scalar.ofBits (F := Ideal) .bf16 0x0000#16))) h7 (ix2 (tileRow p q) h) = tHidden v0 v2 p q h := by
  rw [shapeCast_apply _ h7 (ix2 (tileRow p q) h) (ix3 p q h) (by
    rw [Shape.rowMajor_val_three, Shape.rowMajor_val_two]; rfl)]
  rw [maximumf_apply, addf_apply, broadcast_apply]
  rw [broadcastTo_apply _ h3 (ix3 p q h) (ix3 p (0 : Fin 1) h) (fun a => match a with
      | ⟨0, _⟩ => by show p.val = if (32 : Nat) = 1 then 0 else p.val; rw [if_neg (by decide)]
      | ⟨1, _⟩ => by show 0 = if (1 : Nat) = 1 then 0 else q.val; rw [if_pos rfl]
      | ⟨2, _⟩ => by show h.val = if (512 : Nat) = 1 then 0 else h.val; rw [if_neg (by decide)]),
    broadcastTo_apply _ h6 (ix3 p q h) (ix3 (0 : Fin 1) q h) (fun a => match a with
      | ⟨0, _⟩ => by show 0 = if (1 : Nat) = 1 then 0 else p.val; rw [if_pos rfl]
      | ⟨1, _⟩ => by show q.val = if (128 : Nat) = 1 then 0 else q.val; rw [if_neg (by decide)]
      | ⟨2, _⟩ => by show h.val = if (512 : Nat) = 1 then 0 else h.val; rw [if_neg (by decide)])]
  rw [shapeCast_apply _ h2 (ix3 p (0 : Fin 1) h) (ix2 p h) (by rw [Shape.rowMajor_val_three, Shape.rowMajor_val_two]; show p.val * 512 + h.val = (p.val * 1 + 0) * 512 + h.val; omega),
    shapeCast_apply _ h5 (ix3 (0 : Fin 1) q h) (ix2 q h) (by rw [Shape.rowMajor_val_three, Shape.rowMajor_val_two]; show q.val * 512 + h.val = (0 * 128 + q.val) * 512 + h.val; omega),
    shapeCast_self, shapeCast_self]
  unfold tHidden
  rw [show Scalar.ofBits (F := Ideal) .bf16 0x0000#16 = (0 : EReal) from Ideal.ofBits_zero_bf16]

/-- The free-axis facts of the two matrix products' dimension numbers. -/
theorem dot2_lhs0 (j : S4096x64.Idx) (q : dot_S4096x512_S512x64_S4096x64_1_0_0_1_n_n.contr.Idx) :
    (dot_S4096x512_S512x64_S4096x64_1_0_0_1_n_n.lhsIdx j q 0).val = (j 0).val := by
  unfold DotDims.lhsIdx
  rw [dif_neg (show ¬(0 : Fin S4096x512.rank) ∈ dot_S4096x512_S512x64_S4096x64_1_0_0_1_n_n.lhsBatch by decide),
    dif_pos (show (0 : Fin S4096x512.rank) ∈ dot_S4096x512_S512x64_S4096x64_1_0_0_1_n_n.lhsNonContracting by decide)]
  rfl
theorem dot2_rhs1 (j : S4096x64.Idx) (q : dot_S4096x512_S512x64_S4096x64_1_0_0_1_n_n.contr.Idx) :
    (dot_S4096x512_S512x64_S4096x64_1_0_0_1_n_n.rhsIdx j q 1).val = (j 1).val := by
  unfold DotDims.rhsIdx
  rw [dif_neg (show ¬(1 : Fin S512x64.rank) ∈ dot_S4096x512_S512x64_S4096x64_1_0_0_1_n_n.rhsBatch by decide),
    dif_pos (show (1 : Fin S512x64.rank) ∈ dot_S4096x512_S512x64_S4096x64_1_0_0_1_n_n.rhsNonContracting by decide)]
  rfl
theorem dot3_lhs0 (j : S4096x1.Idx) (q : dot_S4096x64_S64x1_S4096x1_1_0_0_1_n_n.contr.Idx) :
    (dot_S4096x64_S64x1_S4096x1_1_0_0_1_n_n.lhsIdx j q 0).val = (j 0).val := by
  unfold DotDims.lhsIdx
  rw [dif_neg (show ¬(0 : Fin S4096x64.rank) ∈ dot_S4096x64_S64x1_S4096x1_1_0_0_1_n_n.lhsBatch by decide),
    dif_pos (show (0 : Fin S4096x64.rank) ∈ dot_S4096x64_S64x1_S4096x1_1_0_0_1_n_n.lhsNonContracting by decide)]
  rfl
theorem dot3_rhs1 (j : S4096x1.Idx) (q : dot_S4096x64_S64x1_S4096x1_1_0_0_1_n_n.contr.Idx) :
    (dot_S4096x64_S64x1_S4096x1_1_0_0_1_n_n.rhsIdx j q 1).val = (j 1).val := by
  unfold DotDims.rhsIdx
  rw [dif_neg (show ¬(1 : Fin S64x1.rank) ∈ dot_S4096x64_S64x1_S4096x1_1_0_0_1_n_n.rhsBatch by decide),
    dif_pos (show (1 : Fin S64x1.rank) ∈ dot_S4096x64_S64x1_S4096x1_1_0_0_1_n_n.rhsNonContracting by decide)]
  rfl

/-- An affine layer over the folded rows followed by the rectifier, at row `r`, column `k`. -/
theorem relu_affine_at (A : FVec Ideal S4096x512 .bf16) (B : FVec Ideal S512x64 .bf16) (b : FVec Ideal S1x64 .f32)
    (hb : S1x64.Broadcasts S4096x64) (r : Fin 4096) (k : Fin 64) :
    maximumf (addf (matmul dot_S4096x512_S512x64_S4096x64_1_0_0_1_n_n none A B (constant S4096x64 .f32 0x00000000#32)) (broadcastTo S4096x64 b hb))
      (broadcast S4096x64 (Scalar.ofBits (F := Ideal) .f32 0x00000000#32)) (ix2 r k)
    = max ((∑ h : Fin 512, A (ix2 r h) * B (ix2 h k)) + b (ix2 (0 : Fin 1) k)) 0 := by
  rw [maximumf_apply, addf_apply, broadcast_apply]
  rw [show (matmul dot_S4096x512_S512x64_S4096x64_1_0_0_1_n_n none A B (constant S4096x64 .f32 0x00000000#32)) (ix2 r k)
      = ∑ h : Fin 512, A (ix2 r h) * B (ix2 h k) from
    LibMatmul2.matmul_zero_apply dot_S4096x512_S512x64_S4096x64_1_0_0_1_n_n rfl rfl rfl rfl dot2_lhs0 dot2_rhs1 none A B r k]
  rw [broadcastTo_apply b hb (ix2 r k) (ix2 (0 : Fin 1) k) (fun a => match a with
      | ⟨0, _⟩ => by show 0 = if (1 : Nat) = 1 then 0 else r.val; rw [if_pos rfl]
      | ⟨1, _⟩ => by show k.val = if (64 : Nat) = 1 then 0 else k.val; rw [if_neg (by decide)])]
  rw [show Scalar.ofBits (F := Ideal) .f32 0x00000000#32 = (0 : EReal) from Ideal.ofBits_zero_f32]

/-- The body's second-layer value at the folded row of the pair `(p, q)`. -/
theorem pay1_at (p : Fin 32) (q : Fin 128) (k : Fin 64) :
    k0_pay1 v0 v2 v12 v15 (ix2 (tileRow p q) k) = tFeat v0 v2 v12 v15 p q k := by
  unfold k0_pay1
  refine (relu_affine_at _ _ _ _ (tileRow p q) k).trans ?_
  unfold tFeat
  rw [shapeCast_self v15, shapeCast_self v12]
  refine congrArg (fun s => max (s + v15 (ix2 (0 : Fin 1) k)) 0) (Finset.sum_congr rfl fun h _ => ?_)
  exact congrArg (· * v12 (ix2 h k)) (hidden_cast_at v0 v2 _ _ _ _ _ _ _ p q h)

/-- The stored features: the folded rows unfolded to `[32, 128, 64]`. -/
theorem pay2_at (p : Fin 32) (q : Fin 128) (k : Fin 64) :
    k0_pay2 v0 v2 v12 v15 (ix3 p q k) = tFeat v0 v2 v12 v15 p q k := by
  unfold k0_pay2
  refine (shapeCast_apply _ Facts₀.shapeCasts_S4096x64_S32x128x64 (ix3 p q k) (ix2 (tileRow p q) k) (by
    rw [Shape.rowMajor_val_three, Shape.rowMajor_val_two]; rfl)).trans ?_
  exact pay1_at v0 v2 v12 v15 p q k

/-- The last layer over the folded rows, unfolded to `[32, 128]`, then the logistic function. -/
theorem logistic_affine_at (X : FVec Ideal S4096x64 .f32) (hX : FTy.bits .bf16 < FTy.bits .f32) (w : FVec Ideal S64x1 .bf16) (b : FVec Ideal S1x1 .f32)
    (h1 : S64x1.ShapeCasts S64x1) (h2 : S1x1.ShapeCasts S1x1) (h3 : S1x1.Broadcasts S4096x1) (h4 : S4096x1.ShapeCasts S32x128x1)
    (h5 : S32x128x1.ShapeCasts S32x128) (p : Fin 32) (q : Fin 128) :
    logistic (shapeCast S32x128 (shapeCast S32x128x1 (addf (matmul dot_S4096x64_S64x1_S4096x1_1_0_0_1_n_n none (truncf .bf16 X hX) (shapeCast S64x1 w h1)
        (constant S4096x1 .f32 0x00000000#32)) (broadcastTo S4096x1 (shapeCast S1x1 b h2) h3)) h4) h5) (ix2 p q)
    = Ideal.logistic ((∑ k : Fin 64, X (ix2 (tileRow p q) k) * w (ix2 k (0 : Fin 1))) + b (ix2 (0 : Fin 1) (0 : Fin 1))) := by
  show Ideal.logistic _ = _
  refine congrArg Ideal.logistic ?_
  rw [shapeCast_apply _ h5 (ix2 p q) (ix3 p q (0 : Fin 1)) (by
    rw [Shape.rowMajor_val_three, Shape.rowMajor_val_two]; show (p.val * 128 + q.val) * 1 + 0 = p.val * 128 + q.val; omega)]
  rw [shapeCast_apply _ h4 (ix3 p q (0 : Fin 1)) (ix2 (tileRow p q) (0 : Fin 1)) (by
    rw [Shape.rowMajor_val_three, Shape.rowMajor_val_two]; rfl)]
  rw [addf_apply]
  rw [show (matmul dot_S4096x64_S64x1_S4096x1_1_0_0_1_n_n none (truncf .bf16 X hX) (shapeCast S64x1 w h1) (constant S4096x1 .f32 0x00000000#32)) (ix2 (tileRow p q) (0 : Fin 1))
      = ∑ k : Fin 64, (truncf .bf16 X hX) (ix2 (tileRow p q) k) * (shapeCast S64x1 w h1) (ix2 k (0 : Fin 1)) from
    LibMatmul2.matmul_zero_apply dot_S4096x64_S64x1_S4096x1_1_0_0_1_n_n rfl rfl rfl rfl dot3_lhs0 dot3_rhs1 none _ _ (tileRow p q) (0 : Fin 1)]
  rw [broadcastTo_apply _ h3 (ix2 (tileRow p q) (0 : Fin 1)) (ix2 (0 : Fin 1) (0 : Fin 1)) (fun a => match a with
      | ⟨0, _⟩ => by show 0 = if (1 : Nat) = 1 then 0 else (tileRow p q).val; rw [if_pos rfl]
      | ⟨1, _⟩ => by show 0 = if (1 : Nat) = 1 then 0 else 0; rw [if_pos rfl])]
  rw [shapeCast_self, shapeCast_self]
  rfl

/-- The stored probabilities. -/
theorem pay3_at (p : Fin 32) (q : Fin 128) :
    k0_pay3 v0 v2 v12 v15 v24 v27 (ix2 p q) = tProb v0 v2 v12 v15 v24 v27 p q := by
  unfold k0_pay3
  refine (logistic_affine_at _ _ v24 v27 _ _ _ _ _ p q).trans ?_
  unfold tProb
  refine congrArg (fun s => Ideal.logistic (s + v27 (ix2 (0 : Fin 1) (0 : Fin 1)))) (Finset.sum_congr rfl fun k _ => ?_)
  exact congrArg (· * v24 (ix2 k (0 : Fin 1))) (pay1_at v0 v2 v12 v15 p q k)

end Cert.PairMlp.Body

end
-- ==== Proof.KTile.lean ====
/-
  A tile of the kernel's grid computes the perceptron of its own rows.

  If a tile's blocks hold rows `32 a …` of the biased cell projections, rows `128 b …` of the drug projections, and the
  later layers' weights and biases, then the tile's second-layer value and probability for its pair `(p, q)` are the
  features and the probability of the pair `(32 a + p, 128 b + q)`.
-/
import proofs.«104373_j14370960572455_2_alg».proof.Proof.KPay
import proofs.«104373_j14370960572455_2_alg».proof.Proof.Spec

noncomputable section

open scoped BigOperators

namespace Cert.PairMlp.Tile

open Cert.KernelIdeal Idealize.ShloMosaic Idealize.ShloMosaic.ValueIdx Cert.PairMlp Cert.PairMlp.Body

variable (x0 : CellArr) (x1 : DrugArr) (x2 : W1Arr) (x3 : B1Arr) (x4 : W2Arr) (x5 : B2Arr) (x6 : W3Arr) (x7 : B3Arr)
variable (X0 : Vec Ideal S32x512 .bf16) (X1 : Vec Ideal S128x512 .bf16) (X2 : Vec Ideal S512x64 .bf16) (X3 : Vec Ideal S1x64 .f32)
  (X4 : Vec Ideal S64x1 .bf16) (X5 : Vec Ideal S1x1 .f32)

/-- The cell row and the drug row of the tile's pair `(p, q)`, for the tile at block `(a, b)`. -/
abbrev cellOf (a : Nat) (ha : a < 16) (p : Fin 32) : Fin 512 := ⟨a * 32 + p.val, by omega⟩
abbrev drugOf (b : Nat) (hb : b < 2) (q : Fin 128) : Fin 256 := ⟨b * 128 + q.val, by omega⟩

theorem tile_feat (a : Nat) (ha : a < 16) (b : Nat) (hb : b < 2)
    (h0 : ∀ p h, X0 (ix2 p h) = cellProj x0 x2 (cellOf a ha p) h + x3 (ix1 h))
    (h1 : ∀ q h, X1 (ix2 q h) = drugProj x1 x2 (drugOf b hb q) h)
    (h2 : ∀ h k, X2 (ix2 h k) = x4 (ix2 h k))
    (h3 : ∀ k, X3 (ix2 (0 : Fin 1) k) = x5 (ix1 k)) (p : Fin 32) (q : Fin 128) (k : Fin 64) :
    tFeat X0 X1 X2 X3 p q k = feat x0 x1 x2 x3 x4 x5 (cellOf a ha p) (drugOf b hb q) k := by
  unfold tFeat feat
  rw [h3 k]
  refine congrArg (fun s => max (s + x5 (ix1 k)) 0) (Finset.sum_congr rfl fun h _ => ?_)
  rw [h2 h k]; unfold tHidden hidden; rw [h0 p h, h1 q h]

theorem tile_prob (a : Nat) (ha : a < 16) (b : Nat) (hb : b < 2)
    (h0 : ∀ p h, X0 (ix2 p h) = cellProj x0 x2 (cellOf a ha p) h + x3 (ix1 h))
    (h1 : ∀ q h, X1 (ix2 q h) = drugProj x1 x2 (drugOf b hb q) h)
    (h2 : ∀ h k, X2 (ix2 h k) = x4 (ix2 h k))
    (h3 : ∀ k, X3 (ix2 (0 : Fin 1) k) = x5 (ix1 k))
    (h4 : ∀ k, X4 (ix2 k (0 : Fin 1)) = x6 (ix2 k (0 : Fin 1)))
    (h5 : X5 (ix2 (0 : Fin 1) (0 : Fin 1)) = x7 (ix1 (0 : Fin 1))) (p : Fin 32) (q : Fin 128) :
    tProb X0 X1 X2 X3 X4 X5 p q = prob x0 x1 x2 x3 x4 x5 x6 x7 (cellOf a ha p) (drugOf b hb q) := by
  unfold tProb prob logit
  rw [h5]
  refine congrArg (fun s => Ideal.logistic (s + x7 (ix1 (0 : Fin 1)))) (Finset.sum_congr rfl fun k _ => ?_)
  rw [h4 k, tile_feat x0 x1 x2 x3 x4 x5 X0 X1 X2 X3 a ha b hb h0 h1 h2 h3 p q k]

end Cert.PairMlp.Tile

end
-- ==== Proof.KBlocks.lean ====
/-
  From the tiles to the two arrays the launch writes.

  The grid has 16 × 2 points; point `(a, b)` is given rows `32 a …` of the biased cell projections, rows `128 b …` of
  the drug projections and the whole of the later layers' weights and biases, and writes block `(a, b)` of the
  probabilities (32 × 128) and of the features (32 × 128 × 64).  Each block written is the corresponding block of the
  perceptron's probability grid and feature grid, and the blocks tile the two arrays, so the arrays end holding the grids.
-/
import proofs.«104373_j14370960572455_2_alg».proof.Proof.Gen.KernelIdeal.Frame
import proofs.«104373_j14370960572455_2_alg».proof.Proof.KHost
import proofs.«104373_j14370960572455_2_alg».proof.Proof.KTile
import Idealize.ShloMosaic.Lib.Pipeline.Value

noncomputable section

open scoped BigOperators

namespace Cert.PairMlp.Blocks

open Cert.KernelIdeal Cert.KernelIdeal.Gen Idealize.ShloMosaic Idealize.ShloMosaic.ValueIdx Idealize.ShloMosaic.TcCoe Idealize.SL.Sem
open Idealize.ShloMosaic.Pipeline (Dat)
open Cert.PairMlp Cert.PairMlp.Host Cert.PairMlp.Body Cert.PairMlp.Tile

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the grid -/

theorem idx0 : ∀ t : Fin cfg0.N, win0_0.index t (0 : Fin 2) = win0_6.index t (0 : Fin 2) ∧ win0_0.index t (1 : Fin 2) = 0 :=
  (by decide +kernel : ∀ t : Fin grid0.N, _)
theorem idx1 : ∀ t : Fin cfg0.N, win0_1.index t (0 : Fin 2) = win0_6.index t (1 : Fin 2) ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx7 : ∀ t : Fin cfg0.N, win0_7.index t (0 : Fin 3) = win0_6.index t (0 : Fin 2) ∧ win0_7.index t (1 : Fin 3) = win0_6.index t (1 : Fin 2)
    ∧ win0_7.index t (2 : Fin 3) = 0 :=
  (by decide +kernel : ∀ t : Fin grid0.N, _)
theorem idx6_lt : ∀ t : Fin cfg0.N, win0_6.index t (0 : Fin 2) < 16 ∧ win0_6.index t (1 : Fin 2) < 2 :=
  (by decide +kernel : ∀ t : Fin grid0.N, _)
/-- Every block of the probability grid is some point's. -/
theorem idx6_onto : ∀ (q0 : Fin 16) (q1 : Fin 2), ∃ t : Fin cfg0.N, win0_6.index t = ![q0.val, q1.val] :=
  (by decide +kernel : ∀ (q0 : Fin 16) (q1 : Fin 2), ∃ t : Fin grid0.N, win0_6.index t = ![q0.val, q1.val])

/-! ## The input blocks at a point -/

theorem blk0_at (c : Dev nD) (t : Fin cfg0.N) (p : Fin 32) (h : Fin 512) :
    iblk m c 0 t (ix2 p h)
      = cellProj (arg0 m c) (arg2 m c) (cellOf (win0_6.index t (0 : Fin 2)) (idx6_lt t).1 p) h + arg3 m c (ix1 h) := by
  change @Eq EReal _ _
  refine Eq.trans ?_ (cellOperand_at m c (cellOf (win0_6.index t (0 : Fin 2)) (idx6_lt t).1 p) h)
  show (V m c main_v6 : S512x512.Idx → EReal) (((cfg0.win 0).blk t).view.emb (ix2 p h)) = (V m c main_v6 : S512x512.Idx → EReal) (ix2 _ h)
  refine congrArg (V m c main_v6 : S512x512.Idx → EReal) (funext fun a => Fin.ext ?_)
  obtain ⟨e0, e1⟩ := idx0 t
  match a with
  | ⟨0, _⟩ => show win0_0.index t (0 : Fin 2) * 32 + 1 * p.val = win0_6.index t (0 : Fin 2) * 32 + p.val; omega
  | ⟨1, _⟩ => show win0_0.index t (1 : Fin 2) * 512 + 1 * h.val = h.val; omega

theorem blk1_at (c : Dev nD) (t : Fin cfg0.N) (q : Fin 128) (h : Fin 512) :
    iblk m c 1 t (ix2 q h) = drugProj (arg1 m c) (arg2 m c) (drugOf (win0_6.index t (1 : Fin 2)) (idx6_lt t).2 q) h := by
  change @Eq EReal _ _
  refine Eq.trans ?_ (drugOperand_at m c (drugOf (win0_6.index t (1 : Fin 2)) (idx6_lt t).2 q) h)
  show (V m c main_v8 : S256x512.Idx → EReal) (((cfg0.win 1).blk t).view.emb (ix2 q h)) = (V m c main_v8 : S256x512.Idx → EReal) (ix2 _ h)
  refine congrArg (V m c main_v8 : S256x512.Idx → EReal) (funext fun a => Fin.ext ?_)
  obtain ⟨e0, e1⟩ := idx1 t
  match a with
  | ⟨0, _⟩ => show win0_1.index t (0 : Fin 2) * 128 + 1 * q.val = win0_6.index t (1 : Fin 2) * 128 + q.val; omega
  | ⟨1, _⟩ => show win0_1.index t (1 : Fin 2) * 512 + 1 * h.val = h.val; omega

theorem blk2_at (c : Dev nD) (t : Fin cfg0.N) (h : Fin 512) (k : Fin 64) : iblk m c 2 t (ix2 h k) = arg4 m c (ix2 h k) := by
  change @Eq EReal _ _
  refine Eq.trans ?_ (congrFun (w2Operand_eq m c) (ix2 h k))
  show (V m c main_v9 : S512x64.Idx → EReal) (((cfg0.win 2).blk t).view.emb (ix2 h k)) = (V m c main_v9 : S512x64.Idx → EReal) (ix2 h k)
  refine congrArg (V m c main_v9 : S512x64.Idx → EReal) (funext fun a => Fin.ext ?_)
  obtain ⟨e0, e1⟩ := idx2 t
  match a with
  | ⟨0, _⟩ => show win0_2.index t (0 : Fin 2) * 512 + 1 * h.val = h.val; omega
  | ⟨1, _⟩ => show win0_2.index t (1 : Fin 2) * 64 + 1 * k.val = k.val; omega

theorem blk3_at (c : Dev nD) (t : Fin cfg0.N) (k : Fin 64) : iblk m c 3 t (ix2 (0 : Fin 1) k) = arg5 m c (ix1 k) := by
  change @Eq EReal _ _
  refine Eq.trans ?_ (b2Operand_at m c k)
  show (V m c main_v11 : S1x64.Idx → EReal) (((cfg0.win 3).blk t).view.emb (ix2 (0 : Fin 1) k)) = (V m c main_v11 : S1x64.Idx → EReal) (ix2 (0 : Fin 1) k)
  refine congrArg (V m c main_v11 : S1x64.Idx → EReal) (funext fun a => Fin.ext ?_)
  obtain ⟨e0, e1⟩ := idx3 t
  match a with
  | ⟨0, _⟩ => show win0_3.index t (0 : Fin 2) * 1 + 1 * 0 = 0; omega
  | ⟨1, _⟩ => show win0_3.index t (1 : Fin 2) * 64 + 1 * k.val = k.val; omega

theorem blk4_at (c : Dev nD) (t : Fin cfg0.N) (k : Fin 64) : iblk m c 4 t (ix2 k (0 : Fin 1)) = arg6 m c (ix2 k (0 : Fin 1)) := by
  change @Eq EReal _ _
  refine Eq.trans ?_ (congrFun (w3Operand_eq m c) (ix2 k (0 : Fin 1)))
  show (V m c main_v10 : S64x1.Idx → EReal) (((cfg0.win 4).blk t).view.emb (ix2 k (0 : Fin 1))) = (V m c main_v10 : S64x1.Idx → EReal) (ix2 k (0 : Fin 1))
  refine congrArg (V m c main_v10 : S64x1.Idx → EReal) (funext fun a => Fin.ext ?_)
  obtain ⟨e0, e1⟩ := idx4 t
  match a with
  | ⟨0, _⟩ => show win0_4.index t (0 : Fin 2) * 64 + 1 * k.val = k.val; omega
  | ⟨1, _⟩ => show win0_4.index t (1 : Fin 2) * 1 + 1 * 0 = 0; omega

theorem blk5_at (c : Dev nD) (t : Fin cfg0.N) : iblk m c 5 t (ix2 (0 : Fin 1) (0 : Fin 1)) = arg7 m c (ix1 (0 : Fin 1)) := by
  change @Eq EReal _ _
  refine Eq.trans ?_ (b3Operand_at m c)
  show (V m c main_v12 : S1x1.Idx → EReal) (((cfg0.win 5).blk t).view.emb (ix2 (0 : Fin 1) (0 : Fin 1))) = (V m c main_v12 : S1x1.Idx → EReal) (ix2 (0 : Fin 1) (0 : Fin 1))
  refine congrArg (V m c main_v12 : S1x1.Idx → EReal) (funext fun a => Fin.ext ?_)
  obtain ⟨e0, e1⟩ := idx5 t
  match a with
  | ⟨0, _⟩ => show win0_5.index t (0 : Fin 2) * 1 + 1 * 0 = 0; omega
  | ⟨1, _⟩ => show win0_5.index t (1 : Fin 2) * 1 + 1 * 0 = 0; omega

/-! ## What a point writes back -/

/-- Point `t` writes back block `t` of the probability grid. -/
theorem flushed6_eq (c : Dev nD) (t : Fin cfg0.N) :
    (dats m 0 c).flushed 6 t = ((cfg0.win 6).blk t).view.read (Elt Ideal) (probGrid (arg0 m c) (arg1 m c) (arg2 m c) (arg3 m c) (arg4 m c) (arg5 m c) (arg6 m c) (arg7 m c)) := by
  show (cfg0.win 6).cut (grid0.coords t) ((dats m 0 c).after 6 t) = _
  rw [after0_6]
  unfold out0_6
  rw [View.canon_unit_zero hz2]
  simp only [View.ld_unit_zero (S := S32x512) hz2, View.ld_unit_zero (S := S128x512) hz2, View.ld_unit_zero (S := S512x64) hz2, View.ld_unit_zero (S := S1x64) hz2, View.ld_unit_zero (S := S64x1) hz2, View.ld_unit_zero (S := S1x1) hz2]
  funext y
  obtain ⟨p, q, rfl⟩ : ∃ (p : Fin 32) (q : Fin 128), y = ix2 p q := ⟨y 0, y 1, eq_ix2 (n0 := 32) (n1 := 128) y⟩
  show k0_pay3 (iblk m c 0 t) (iblk m c 1 t) (iblk m c 2 t) (iblk m c 3 t) (iblk m c 4 t) (iblk m c 5 t) (ix2 p q) = probGrid (arg0 m c) (arg1 m c) (arg2 m c) (arg3 m c) (arg4 m c) (arg5 m c) (arg6 m c) (arg7 m c) (((cfg0.win 6).blk t).view.emb (ix2 p q))
  refine (Body.pay3_at (iblk m c 0 t) (iblk m c 1 t) (iblk m c 2 t) (iblk m c 3 t) (iblk m c 4 t) (iblk m c 5 t) p q).trans ?_
  refine (Tile.tile_prob (arg0 m c) (arg1 m c) (arg2 m c) (arg3 m c) (arg4 m c) (arg5 m c) (arg6 m c) (arg7 m c) (iblk m c 0 t) (iblk m c 1 t) (iblk m c 2 t) (iblk m c 3 t) (iblk m c 4 t) (iblk m c 5 t) (win0_6.index t (0 : Fin 2)) (idx6_lt t).1 (win0_6.index t (1 : Fin 2)) (idx6_lt t).2
    (blk0_at m c t) (blk1_at m c t) (blk2_at m c t) (blk3_at m c t) (blk4_at m c t) (blk5_at m c t) p q).trans ?_
  have ea : cellOf (win0_6.index t (0 : Fin 2)) (idx6_lt t).1 p = (((cfg0.win 6).blk t).view.emb (ix2 p q)) 0 :=
    Fin.ext (by show win0_6.index t (0 : Fin 2) * 32 + p.val = win0_6.index t (0 : Fin 2) * 32 + 1 * p.val; omega)
  have eb : drugOf (win0_6.index t (1 : Fin 2)) (idx6_lt t).2 q = (((cfg0.win 6).blk t).view.emb (ix2 p q)) 1 :=
    Fin.ext (by show win0_6.index t (1 : Fin 2) * 128 + q.val = win0_6.index t (1 : Fin 2) * 128 + 1 * q.val; omega)
  rw [ea, eb]
  rfl

/-- Point `t` writes back block `t` of the feature grid. -/
theorem flushed7_eq (c : Dev nD) (t : Fin cfg0.N) :
    (dats m 0 c).flushed 7 t = ((cfg0.win 7).blk t).view.read (Elt Ideal) (featGrid (arg0 m c) (arg1 m c) (arg2 m c) (arg3 m c) (arg4 m c) (arg5 m c)) := by
  show (cfg0.win 7).cut (grid0.coords t) ((dats m 0 c).after 7 t) = _
  rw [after0_7]
  unfold out0_7
  rw [View.canon_unit_zero hz3]
  simp only [View.ld_unit_zero (S := S32x512) hz2, View.ld_unit_zero (S := S128x512) hz2, View.ld_unit_zero (S := S512x64) hz2, View.ld_unit_zero (S := S1x64) hz2, View.ld_unit_zero (S := S64x1) hz2, View.ld_unit_zero (S := S1x1) hz2]
  funext y
  obtain ⟨p, q, k, rfl⟩ : ∃ (p : Fin 32) (q : Fin 128) (k : Fin 64), y = ix3 p q k := ⟨y 0, y 1, y 2, eq_ix3 (n0 := 32) (n1 := 128) (n2 := 64) y⟩
  show k0_pay2 (iblk m c 0 t) (iblk m c 1 t) (iblk m c 2 t) (iblk m c 3 t) (ix3 p q k) = featGrid (arg0 m c) (arg1 m c) (arg2 m c) (arg3 m c) (arg4 m c) (arg5 m c) (((cfg0.win 7).blk t).view.emb (ix3 p q k))
  refine (Body.pay2_at (iblk m c 0 t) (iblk m c 1 t) (iblk m c 2 t) (iblk m c 3 t) p q k).trans ?_
  refine (Tile.tile_feat (arg0 m c) (arg1 m c) (arg2 m c) (arg3 m c) (arg4 m c) (arg5 m c) (iblk m c 0 t) (iblk m c 1 t) (iblk m c 2 t) (iblk m c 3 t) (win0_6.index t (0 : Fin 2)) (idx6_lt t).1 (win0_6.index t (1 : Fin 2)) (idx6_lt t).2
    (blk0_at m c t) (blk1_at m c t) (blk2_at m c t) (blk3_at m c t) p q k).trans ?_
  obtain ⟨e0, e1, e2⟩ := idx7 t
  have ea : cellOf (win0_6.index t (0 : Fin 2)) (idx6_lt t).1 p = (((cfg0.win 7).blk t).view.emb (ix3 p q k)) 0 :=
    Fin.ext (by show win0_6.index t (0 : Fin 2) * 32 + p.val = win0_7.index t (0 : Fin 3) * 32 + 1 * p.val; omega)
  have eb : drugOf (win0_6.index t (1 : Fin 2)) (idx6_lt t).2 q = (((cfg0.win 7).blk t).view.emb (ix3 p q k)) 1 :=
    Fin.ext (by show win0_6.index t (1 : Fin 2) * 128 + q.val = win0_7.index t (1 : Fin 3) * 128 + 1 * q.val; omega)
  have ec : k = (((cfg0.win 7).blk t).view.emb (ix3 p q k)) 2 :=
    Fin.ext (by show k.val = win0_7.index t (2 : Fin 3) * 64 + 1 * k.val; omega)
  rw [ea, eb]
  conv_lhs => rw [ec]
  rfl

/-! ## The blocks tile the arrays -/

theorem mem_blk6 (t : Fin cfg0.N) (i : S512x256.Idx) :
    i ∈ ((cfg0.win 6).blk t).view.set ↔ ∀ a : Fin 2, win0_6.index t a * S32x128.size a ≤ (i a).val ∧ (i a).val < win0_6.index t a * S32x128.size a + S32x128.size a := by
  show i ∈ ((View.whole main_v13_0).slice (win0_6.rect t)).set ↔ _
  rw [View.set_slice_whole, Rect.mem_set_unit]
  exact Iff.rfl

theorem mem_blk7 (t : Fin cfg0.N) (i : S512x256x64.Idx) :
    i ∈ ((cfg0.win 7).blk t).view.set ↔ ∀ a : Fin 3, win0_7.index t a * S32x128x64.size a ≤ (i a).val ∧ (i a).val < win0_7.index t a * S32x128x64.size a + S32x128x64.size a := by
  show i ∈ ((View.whole main_v13_1).slice (win0_7.rect t)).set ↔ _
  rw [View.set_slice_whole, Rect.mem_set_unit]
  exact Iff.rfl

/-- The pair `(i, j)` is in the block of the point `(i / 32, j / 128)`. -/
theorem cover6 (i : S512x256.Idx) : ∃ t : Fin cfg0.N, (cfg0.win 6).flush t = true ∧ i ∈ ((cfg0.win 6).blk t).view.set := by
  have hi0 : (i 0).val < 512 := (i 0).isLt
  have hi1 : (i 1).val < 256 := (i 1).isLt
  obtain ⟨t, ht⟩ := idx6_onto ⟨(i 0).val / 32, by omega⟩ ⟨(i 1).val / 128, by omega⟩
  have q0 : win0_6.index t (0 : Fin 2) = (i 0).val / 32 := congrFun ht 0
  have q1 : win0_6.index t (1 : Fin 2) = (i 1).val / 128 := congrFun ht 1
  refine ⟨t, flush0_6 t, ?_⟩
  rw [mem_blk6]
  intro a
  match a with
  | ⟨0, _⟩ => show win0_6.index t (0 : Fin 2) * 32 ≤ (i 0).val ∧ (i 0).val < win0_6.index t (0 : Fin 2) * 32 + 32; omega
  | ⟨1, _⟩ => show win0_6.index t (1 : Fin 2) * 128 ≤ (i 1).val ∧ (i 1).val < win0_6.index t (1 : Fin 2) * 128 + 128; omega

theorem cover7 (i : S512x256x64.Idx) : ∃ t : Fin cfg0.N, (cfg0.win 7).flush t = true ∧ i ∈ ((cfg0.win 7).blk t).view.set := by
  have hi0 : (i 0).val < 512 := (i 0).isLt
  have hi1 : (i 1).val < 256 := (i 1).isLt
  have hi2 : (i 2).val < 64 := (i 2).isLt
  obtain ⟨t, ht⟩ := idx6_onto ⟨(i 0).val / 32, by omega⟩ ⟨(i 1).val / 128, by omega⟩
  have q0 : win0_6.index t (0 : Fin 2) = (i 0).val / 32 := congrFun ht 0
  have q1 : win0_6.index t (1 : Fin 2) = (i 1).val / 128 := congrFun ht 1
  obtain ⟨e0, e1, e2⟩ := idx7 t
  refine ⟨t, flush0_7 t, ?_⟩
  rw [mem_blk7]
  intro a
  match a with
  | ⟨0, _⟩ => show win0_7.index t (0 : Fin 3) * 32 ≤ (i 0).val ∧ (i 0).val < win0_7.index t (0 : Fin 3) * 32 + 32; omega
  | ⟨1, _⟩ => show win0_7.index t (1 : Fin 3) * 128 ≤ (i 1).val ∧ (i 1).val < win0_7.index t (1 : Fin 3) * 128 + 128; omega
  | ⟨2, _⟩ => show win0_7.index t (2 : Fin 3) * 64 ≤ (i 2).val ∧ (i 2).val < win0_7.index t (2 : Fin 3) * 64 + 64; omega

/-! ## The two arrays after the launch -/

theorem final6 (c : Dev nD) : (dats m 0 c).arrAt 6 cfg0.N = probGrid (arg0 m c) (arg1 m c) (arg2 m c) (arg3 m c) (arg4 m c) (arg5 m c) (arg6 m c) (arg7 m c) :=
  (dats m 0 c).arrAt_eq_of_cover 6 (probGrid (arg0 m c) (arg1 m c) (arg2 m c) (arg3 m c) (arg4 m c) (arg5 m c) (arg6 m c) (arg7 m c)) (fun t _ => flushed6_eq m c t) cover6

theorem final7 (c : Dev nD) : (dats m 0 c).arrAt 7 cfg0.N = featGrid (arg0 m c) (arg1 m c) (arg2 m c) (arg3 m c) (arg4 m c) (arg5 m c) :=
  (dats m 0 c).arrAt_eq_of_cover 7 (featGrid (arg0 m c) (arg1 m c) (arg2 m c) (arg3 m c) (arg4 m c) (arg5 m c)) (fun t _ => flushed7_eq m c t) cover7

end Cert.PairMlp.Blocks

end
-- ==== Proof.KRun.lean ====
/-
  The kernel program's run with its two results named.

  After the launch the host only re-lays the two arrays: the `[512, 256]` probabilities as a vector of 131072 entries and
  the `[512, 256, 64]` features as a `[131072, 64]` matrix, both in row-major order, so that flat row `n` is the pair
  `(n / 256, n % 256)`.
-/
import proofs.«104373_j14370960572455_2_alg».proof.Proof.KBlocks
import Idealize.ShloMosaic.Lib.StableHlo.Run

noncomputable section

open scoped BigOperators

namespace Cert.PairMlp.Run

open Cert.KernelIdeal Cert.KernelIdeal.Gen Idealize.ShloMosaic Idealize.ShloMosaic.ValueIdx Idealize.ShloMosaic.TcCoe Idealize.SL.Sem
open Cert.PairMlp Cert.PairMlp.Host Cert.PairMlp.Blocks

variable (m : (ℓ : Loc nD τ sig) → Buf (Elt Ideal) ℓ) (ρ : Dev nD → PrngReg)

/-- The first result: the probability grid read in row-major order. -/
theorem tail_prob (c : Dev nD) :
    Pipeline.afterTail₀ cfgs (dats m) 0 (V0 m) [hostOps1] c main_v14 = probFlat (arg0 m c) (arg1 m c) (arg2 m c) (arg3 m c) (arg4 m c) (arg5 m c) (arg6 m c) (arg7 m c) := by
  unfold Pipeline.afterTail₀
  show StableHlo.after hostOps1 _ (Proc.devRef .tc main_v14) = _
  after_results
  funext y
  obtain ⟨n, rfl⟩ : ∃ n : Fin 131072, y = ix1 n := ⟨y 0, eq_ix1 y⟩
  show shapeCast S131072 (Pipeline.withArrays spec0 c (V0 m c) (fun w => (dats m 0 c).arrAt w cfg0.N) (Proc.devRef .tc main_v13_0) : S512x256.Idx → EReal)
    Facts₀.shapeCasts_S512x256_S131072 (ix1 n) = _
  rw [show (Pipeline.withArrays spec0 c (V0 m c) (fun w => (dats m 0 c).arrAt w cfg0.N) (Proc.devRef .tc main_v13_0) : S512x256.Idx → EReal)
      = probGrid (arg0 m c) (arg1 m c) (arg2 m c) (arg3 m c) (arg4 m c) (arg5 m c) (arg6 m c) (arg7 m c) from (Pipeline.withArrays_arr spec0 launch0.win.arr_inj c _ _ 6).trans (final6 m c)]
  rw [shapeCast_apply _ Facts₀.shapeCasts_S512x256_S131072 (ix1 n) (ix2 (pairCell n) (pairDrug n)) (by
    rw [Shape.rowMajor_val_two, Shape.rowMajor_val_one]; have hn := n.isLt; show n.val / 256 * 256 + n.val % 256 = n.val; omega)]
  rfl

/-- The second result: the feature grid with its two leading axes merged. -/
theorem tail_feat (c : Dev nD) :
    Pipeline.afterTail₀ cfgs (dats m) 0 (V0 m) [hostOps1] c main_v15 = featFlat (arg0 m c) (arg1 m c) (arg2 m c) (arg3 m c) (arg4 m c) (arg5 m c) := by
  unfold Pipeline.afterTail₀
  show StableHlo.after hostOps1 _ (Proc.devRef .tc main_v15) = _
  after_results
  funext y
  obtain ⟨n, k, rfl⟩ : ∃ (n : Fin 131072) (k : Fin 64), y = ix2 n k := ⟨y 0, y 1, eq_ix2 y⟩
  show shapeCast S131072x64 (Pipeline.withArrays spec0 c (V0 m c) (fun w => (dats m 0 c).arrAt w cfg0.N) (Proc.devRef .tc main_v13_1) : S512x256x64.Idx → EReal)
    Facts₀.shapeCasts_S512x256x64_S131072x64 (ix2 n k) = _
  rw [show (Pipeline.withArrays spec0 c (V0 m c) (fun w => (dats m 0 c).arrAt w cfg0.N) (Proc.devRef .tc main_v13_1) : S512x256x64.Idx → EReal)
      = featGrid (arg0 m c) (arg1 m c) (arg2 m c) (arg3 m c) (arg4 m c) (arg5 m c) from (Pipeline.withArrays_arr spec0 launch0.win.arr_inj c _ _ 7).trans (final7 m c)]
  rw [shapeCast_apply _ Facts₀.shapeCasts_S512x256x64_S131072x64 (ix2 n k) (ix3 (pairCell n) (pairDrug n) k) (by
    rw [Shape.rowMajor_val_three, Shape.rowMajor_val_two]; have hn := n.isLt
    show (n.val / 256 * 256 + n.val % 256) * 64 + k.val = n.val * 64 + k.val; omega)]
  rfl

/-- Every weakly fair execution of the kernel program ends with the probabilities and the features of the perceptron in
    its two results, and its arguments unchanged. -/
theorem run : θ_run defs (onTc (τ := τ) (main (F := Ideal))) ⟨m, fun _ => 0, ρ⟩ (fun r => ∀ c : Dev nD,
      r.2.mem ((c.tc : Thread nD τ).loc main_v14) = probFlat (arg0 m c) (arg1 m c) (arg2 m c) (arg3 m c) (arg4 m c) (arg5 m c) (arg6 m c) (arg7 m c)
      ∧ r.2.mem ((c.tc : Thread nD τ).loc main_v15) = featFlat (arg0 m c) (arg1 m c) (arg2 m c) (arg3 m c) (arg4 m c) (arg5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v14 (Pipeline.mem_restRefs_of main_v14 (by decide) (by decide))).trans (tail_prob m c),
      ((h c).2 main_v15 (Pipeline.mem_restRefs_of main_v15 (by decide) (by decide))).trans (tail_feat m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.PairMlp.Run

end
-- ==== Proof.lean ====
/-
  The pairwise cell–drug perceptron: a tiled kernel against the plain array program.

  Both programs compute, for each of the 512 × 256 pairs of a cell row and a drug row, a three-layer perceptron of the
  concatenated rows: the first layer is split into the cell rows times the first 512 rows of the weight matrix plus the drug
  rows times its last 278 rows plus the bias, rectified; the second layer (width 64, rectified) gives the features; the third
  (width one) followed by the logistic function gives the probability.  The kernel program adds the bias to the cell
  projections before the launch, where the reference adds it after the two projections are summed: addition of extended
  reals is commutative and associative, so the two groupings agree with no finiteness needed.  The kernel's matrix products
  over the 4096 folded pairs of a tile are the reference's contractions row by row; its logistic operation is the
  reference's `1 / (1 + exp (-z))` by definition; changes of float format are the identity on the extended reals.

  The modules: `Spec` (the perceptron as functions of the arguments), `RefSide` (the reference's results are those
  functions), `KHost` (the launch's operands), `KPay` and `KTile` (a tile's stored values), `KBlocks` (the blocks tile the
  arrays), `KRun` (the kernel program's results).  The idealization rewrote nothing, so `preserves` is trivial.
-/
import proofs.«104373_j14370960572455_2_alg».proof.Defs
import proofs.«104373_j14370960572455_2_alg».proof.Proof.Gen.Kernel
import proofs.«104373_j14370960572455_2_alg».proof.Proof.Gen.Kernel.Skeleton
import proofs.«104373_j14370960572455_2_alg».proof.Proof.Gen.Kernel.Launch
import proofs.«104373_j14370960572455_2_alg».proof.Proof.Gen.Kernel.Points
import proofs.«104373_j14370960572455_2_alg».proof.Proof.Gen.Kernel.Frame
import proofs.«104373_j14370960572455_2_alg».proof.Proof.Gen.KernelIdeal
import proofs.«104373_j14370960572455_2_alg».proof.Proof.Gen.KernelIdeal.Skeleton
import proofs.«104373_j14370960572455_2_alg».proof.Proof.Gen.KernelIdeal.Launch
import proofs.«104373_j14370960572455_2_alg».proof.Proof.Gen.KernelIdeal.Points
import proofs.«104373_j14370960572455_2_alg».proof.Proof.Gen.KernelIdeal.Frame
import proofs.«104373_j14370960572455_2_alg».proof.Proof.Gen.ReferenceIdeal
import proofs.«104373_j14370960572455_2_alg».proof.Proof.Gen.Pre_finite_inputs
import proofs.«104373_j14370960572455_2_alg».proof.Proof.Gen.ReferenceIdeal.Run
import proofs.«104373_j14370960572455_2_alg».proof.Proof.Gen.ReferenceIdeal.Read
import proofs.«104373_j14370960572455_2_alg».proof.Proof.RefSide
import proofs.«104373_j14370960572455_2_alg».proof.Proof.KRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the perceptron's probabilities and features of the (agreeing) arguments in their results. -/
theorem algebraic : Cert.algebraic_KernelIdeal_ReferenceIdeal := by
  intro m ρ m' ρ' _ hagree
  refine ⟨fun c => Cert.PairMlp.probFlat (Cert.PairMlp.Host.arg0 m c) (Cert.PairMlp.Host.arg1 m c) (Cert.PairMlp.Host.arg2 m c) (Cert.PairMlp.Host.arg3 m c) (Cert.PairMlp.Host.arg4 m c) (Cert.PairMlp.Host.arg5 m c) (Cert.PairMlp.Host.arg6 m c) (Cert.PairMlp.Host.arg7 m c), fun c => Cert.PairMlp.featFlat (Cert.PairMlp.Host.arg0 m c) (Cert.PairMlp.Host.arg1 m c) (Cert.PairMlp.Host.arg2 m c) (Cert.PairMlp.Host.arg3 m c) (Cert.PairMlp.Host.arg4 m c) (Cert.PairMlp.Host.arg5 m c),
    Cert.PairMlp.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [a0, a1, a2, a3, a4, a5, a6, a7]
    exact (Cert.ReferenceIdeal.Read.val_main_v29_eq (F := Ideal) (Cert.PairMlp.Host.arg0 m c) (Cert.PairMlp.Host.arg1 m c) (Cert.PairMlp.Host.arg2 m c) (Cert.PairMlp.Host.arg3 m c) (Cert.PairMlp.Host.arg4 m c) (Cert.PairMlp.Host.arg5 m c) (Cert.PairMlp.Host.arg6 m c) (Cert.PairMlp.Host.arg7 m c)).trans
      (Cert.PairMlp.Ref.probFlat_eq (Cert.PairMlp.Host.arg0 m c) (Cert.PairMlp.Host.arg1 m c) (Cert.PairMlp.Host.arg2 m c) (Cert.PairMlp.Host.arg3 m c) (Cert.PairMlp.Host.arg4 m c) (Cert.PairMlp.Host.arg5 m c) (Cert.PairMlp.Host.arg6 m c) (Cert.PairMlp.Host.arg7 m c))
  · obtain ⟨a0, a1, a2, a3, a4, a5, a6, a7⟩ := hagree c
    rw [a0, a1, a2, a3, a4, a5]
    exact (Cert.ReferenceIdeal.Read.val_main_v18_eq (F := Ideal) (Cert.PairMlp.Host.arg0 m c) (Cert.PairMlp.Host.arg1 m c) (Cert.PairMlp.Host.arg2 m c) (Cert.PairMlp.Host.arg3 m c) (Cert.PairMlp.Host.arg4 m c) (Cert.PairMlp.Host.arg5 m c)).trans
      (Cert.PairMlp.Ref.featFlat_eq (Cert.PairMlp.Host.arg0 m c) (Cert.PairMlp.Host.arg1 m c) (Cert.PairMlp.Host.arg2 m c) (Cert.PairMlp.Host.arg3 m c) (Cert.PairMlp.Host.arg4 m c) (Cert.PairMlp.Host.arg5 m c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
